-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32x2048x2048 : Shape := ⟨3, ![32, 2048, 2048]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) (main_arg3 : IVec S32x2048x2048 1) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i1⟩
  | .hbm, ⟨4, _⟩ => ⟨S32x2048x2048, .i32⟩
  | .hbm, ⟨5, _⟩ => ⟨S32x2048x64, .f32⟩
  | .hbm, ⟨6, _⟩ => ⟨S32x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x2048x2048.size a
  hwx0_3 : ∀ i : grid0.Coords, EltTy.bits .i32 = 32 ∨ (Rect.block (s := S32x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x2048x2048.size a
  hwx0_5 : ∀ i : grid0.Coords, EltTy.bits .f32 = 32 ∨ (Rect.block (s := S32x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i1⟩
  | .hbm, ⟨4, _⟩ => ⟨S32x2048x2048, .f32⟩
  | .hbm, ⟨5, _⟩ => ⟨S_, .f32⟩
  | .hbm, ⟨6, _⟩ => ⟨S32x2048x2048, .f32⟩
  | .hbm, ⟨7, _⟩ => ⟨S32x2048x2048, .f32⟩
  | .hbm, ⟨8, _⟩ => ⟨S_, .f32⟩
  | .hbm, ⟨9, _⟩ => ⟨S_, .f32⟩
  | .hbm, ⟨10, _⟩ => ⟨S32x2048x2048, .f32⟩
  | .hbm, ⟨11, _⟩ => ⟨S32x2048x2048, .f32⟩
  | .hbm, ⟨12, _⟩ => ⟨S_, .f32⟩
  | .hbm, ⟨13, _⟩ => ⟨S32x2048, .f32⟩
  | .hbm, ⟨14, _⟩ => ⟨S_, .f32⟩
  | .hbm, ⟨15, _⟩ => ⟨S32x2048, .f32⟩
  | .hbm, ⟨16, _⟩ => ⟨S32x2048, .f32⟩
  | .hbm, ⟨17, _⟩ => ⟨S32x2048x1, .f32⟩
  | .hbm, ⟨18, _⟩ => ⟨S32x2048x2048, .f32⟩
  | .hbm, ⟨19, _⟩ => ⟨S32x2048x2048, .f32⟩
  | .hbm, ⟨20, _⟩ => ⟨S32x2048x2048, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S32x2048x2048, .f32⟩
  | .hbm, ⟨25, _⟩ => ⟨S32x2048x2048, .f32⟩
  | .hbm, ⟨26, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibRowMax.lean ====
/-
  The maximum along the rows of an [a, b] array, started from −∞, read at a row.

  A kernel takes it as a lane reduction whose accumulator is the word of −∞, the host as a one-operand reduce whose
  initial value is the scalar constant −∞. On the extended reals both are, at row p, the maximum over k of the entries
  (p, k), with −∞ (the bottom element) the maximum of no entries; the order in which the entries are met does not
  matter since the maximum is commutative and associative. Stated for any extents a and b.
-/
import Idealize.ShloMosaic.Lib.Pipeline.Value
import Idealize.ShloMosaic.Lib.ValueIdx
import Idealize.ShloMosaic.PureOps.Ideal.Laws
import proofs.«161282_j446676599162_1_alg».proof.Proof.LibKeepdims

noncomputable section

namespace RowMax

open Idealize.ShloMosaic Idealize.ShloMosaic.ValueIdx

/-- The word of −∞ denotes the bottom of the extended reals. -/
theorem ofBits_neg_inf : Ideal.ofBits .f32 0xFF800000#32 = (⊥ : EReal) := by simp [Ideal.ofBits, Ideal.ieee]

/-- Reading the source along row p: lane k put back over p is the entry (p, k). -/
theorem comp_lift {a b : ℕ} (src : (⟨2, ![a, b]⟩ : Shape).Idx → EReal)
    (h : (⟨2, ![a, b]⟩ : Shape).Reduces [1] (⟨1, ![a]⟩ : Shape)) (p : Fin a) :
    (src ∘ h.lift (ix1 p)) = fun k : Fin b => src (ix2 p k) :=
  funext fun k => congrArg src (Keepdims.lift_lane h p k)

/-- A kernel's lane maximum from −∞, at row p. -/
theorem laneMax_apply {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  rw [comp_lift src h p]
  show Finset.fold max (Ideal.ofBits .f32 0xFF800000#32) _ _ = _
  rw [ofBits_neg_inf]
  rfl

/-- The host's maximum-reduce along the rows from the scalar −∞, at row p. -/
theorem hostMax_apply {a b : ℕ} (src : FVec Ideal ⟨2, ![a, b]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce (FloatOps.maximumf (F := Ideal) (φ := .f32)) src (constant (F := Ideal) ⟨0, ![]⟩ .f32 0xFF800000#32) h' hu (ix1 p)
      = (Finset.univ : Finset (Fin b)).fold max ⊥ (fun k => src (ix2 p k)) := by
  rw [Host.reduce_eq_fold_single (FloatOps.maximumf (F := Ideal) (φ := .f32)) src _ h' h hu (ix1 p), comp_lift src h p]
  show Finset.fold max (Ideal.ofBits .f32 0xFF800000#32) _ _ = _
  rw [ofBits_neg_inf]
  rfl

end RowMax

end
-- ==== Proof.LibSoftmaxTile.lean ====
/-
  The row softmax of an [a, b] tile as a kernel takes it, read at an entry.

  With s the row p of the tile, the kernel computes
    m     = max(−∞, max_k s_k)          (a lane maximum started from the word of −∞, then once more against −∞),
    e_j   = exp(s_j − m),
    P_j   = e_j / Σ_k e_k               (a lane sum started from the zero word),
  the two row vectors kept as [a, 1] columns and spread back over [a, b]. On the extended reals the entry (p, j) of
  the result is `prob s j` below: the order in which a row's entries meet the maximum or the sum does not matter,
  and nothing is rounded. Stated for any extents a and b; no entry is assumed finite (the same expression is read
  on both sides of a comparison, so its value at infinite entries never has to be computed).
-/
import Idealize.ShloMosaic.Lib.Pipeline.Value
import Idealize.ShloMosaic.Lib.ValueIdx
import Idealize.ShloMosaic.PureOps.Ideal.Laws
import proofs.«161282_j446676599162_1_alg».proof.Proof.LibKeepdims
import proofs.«161282_j446676599162_1_alg».proof.Proof.LibRowMax

noncomputable section

namespace SoftmaxTile

open Idealize.ShloMosaic Idealize.ShloMosaic.ValueIdx

/-- The shift of a row: the larger of −∞ (spelt as its word) and the row's maximum taken from −∞. -/
def shift {n : ℕ} (s : Fin n → EReal) : EReal :=
  max (Ideal.ofBits .f32 0xFF800000#32) ((Finset.univ : Finset (Fin n)).fold max ⊥ s)

/-- The shifted exponential of entry j of a row. -/
def num {n : ℕ} (s : Fin n → EReal) (j : Fin n) : EReal := Ideal.exp (s j - shift s)

/-- Entry j of the softmax of a row: exp(s_j − m) / Σ_k exp(s_k − m), the quotient being the extended reals' own. -/
def prob {n : ℕ} (s : Fin n → EReal) (j : Fin n) : EReal := Ideal.div (num s j) (∑ k : Fin n, num s k)

variable {a b : ℕ}

/-- The column of row shifts as the kernel forms it. -/
def shiftVec (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32) : FVec Ideal ⟨1, ![a]⟩ .f32 :=
  maximumf (broadcast ⟨1, ![a]⟩ (Scalar.ofBits (F := Ideal) .f32 0xFF800000#32))
    (multiReduction .maximumf [1] ⟨1, ![a]⟩ S 0xFF800000#32 hr hφ hm)

/-- The tile of shifted exponentials as the kernel forms it. -/
def numTile (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  exp (subf S (broadcastTo ⟨2, ![a, b]⟩ (shapeCast ⟨2, ![a, 1]⟩ (shiftVec S hr hφ hm) hc) hb))

/-- The softmax tile as the kernel forms it: the exponentials over their row sums. -/
def tile (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32)
    (hz : (0x00000000#32 : BitVec 32) = 0x00000000#32)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  divf (numTile S hr hφ hm hc hb)
    (broadcastTo ⟨2, ![a, b]⟩
      (shapeCast ⟨2, ![a, 1]⟩ (multiReduction .add [1] ⟨1, ![a]⟩ (numTile S hr hφ hm hc hb) 0x00000000#32 hr hφ hz) hc) hb)

/-- The shift column at row p is the shift of row p. -/
theorem shiftVec_apply (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32) (p : Fin a) :
    shiftVec S hr hφ hm (ix1 p) = shift fun k => S (ix2 p k) :=
  congrArg (max (Ideal.ofBits .f32 0xFF800000#32)) (RowMax.laneMax_apply S hr hφ hm p)

/-- The exponential tile at (p, k) is the shifted exponential of entry k of row p. -/
theorem numTile_apply (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩)
    (p : Fin a) (k : Fin b) :
    numTile S hr hφ hm hc hb (ix2 p k) = num (fun k => S (ix2 p k)) k := by
  show Ideal.exp (S (ix2 p k) - broadcastTo ⟨2, ![a, b]⟩ (shapeCast ⟨2, ![a, 1]⟩ (shiftVec S hr hφ hm) hc) hb (ix2 p k)) = _
  rw [Keepdims.broadcastTo_a1_ab_apply, Keepdims.shapeCast_a_a1_apply, shiftVec_apply]
  rfl

/-- The softmax tile at (p, j) is entry j of the softmax of row p. -/
theorem tile_apply (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32)
    (hz : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (p : Fin a) (j : Fin b) :
    tile S hr hφ hm hz hc hb (ix2 p j) = prob (fun k => S (ix2 p k)) j := by
  show Ideal.div (numTile S hr hφ hm hc hb (ix2 p j))
      (broadcastTo ⟨2, ![a, b]⟩ (shapeCast ⟨2, ![a, 1]⟩
        (multiReduction .add [1] ⟨1, ![a]⟩ (numTile S hr hφ hm hc hb) 0x00000000#32 hr hφ hz) hc) hb (ix2 p j)) = _
  rw [Keepdims.broadcastTo_a1_ab_apply, Keepdims.shapeCast_a_a1_apply, Keepdims.laneSum_apply, numTile_apply]
  exact congrArg (Ideal.div _) (Finset.sum_congr rfl fun k _ => numTile_apply S hr hφ hm hc hb p k)

end SoftmaxTile

end
-- ==== Proof.Spec.lean ====
/-
  Masked scaled dot-product attention, entry by entry on the extended reals.

  For queries q, keys k and values v of shape [B, L, D] and a mask of shape [B, L, L]:
    score(b, p, j)  = (Σ_d q(b,p,d) · k(b,j,d)) · 1/8                (1/8 spelt as its word, 0x3E000000),
    logit(b, p, j)  = −1 000 000 where the mask bit is set, score(b, p, j) elsewhere,
    weight(b, p, j) = exp(logit_j − m) / Σ_j' exp(logit_j' − m),     m = max(−∞, max_j' logit_j'),
    out(b, p, d)    = Σ_j weight(b, p, j) · v(b, j, d).
  Both programs compute exactly these expressions; they differ in how the scale is written (a product with 1/8
  against a quotient by 8, equal on every extended real) and in how the work is cut into tiles, which changes no
  sum's set of terms. Stated for any extents.
-/
import Idealize.ShloMosaic.PureOps.Ideal
import Idealize.ShloMosaic.Lib.ValueIdx
import proofs.«161282_j446676599162_1_alg».proof.Proof.LibSoftmaxTile

noncomputable section

namespace Attn

open Idealize.ShloMosaic Idealize.ShloMosaic.ValueIdx

/-- The word 0x41000000 is the real 8. -/
theorem ofBits_eight : Ideal.ofBits .f32 0x41000000#32 = ((8 : ℝ) : EReal) := by
  simp [Ideal.ofBits, Ideal.ieee, -EReal.coe_mul]; norm_num

/-- The word 0x3E000000 is the real 1/8. -/
theorem ofBits_eighth : Ideal.ofBits .f32 0x3E000000#32 = ((1 / 8 : ℝ) : EReal) := by
  simp [Ideal.ofBits, Ideal.ieee, -EReal.coe_mul]; norm_num

/-- Dividing by 8 is multiplying by 1/8, on every extended real. -/
theorem div_eight (x : EReal) : Ideal.div x (Ideal.ofBits .f32 0x41000000#32) = x * Ideal.ofBits .f32 0x3E000000#32 := by
  rw [ofBits_eight, ofBits_eighth]
  exact Ideal.div_coe (by norm_num) x

/-- A mask bit widened to 32 bits is nonzero exactly when the bit is set. -/
theorem ne_zero_widened (b : BitVec 1) : IntOp.cmpi .ne (b.setWidth 32) 0#32 = b := by
  rcases BitVec.eq_zero_or_eq_one b with h | h <;> subst h <;> decide

/-- A masked position takes the fill value −1 000 000 (as its word), any other keeps its score. -/
def fill (mk : BitVec 1) (x : EReal) : EReal := Scalar.select mk (Ideal.ofBits .f32 0xC9742400#32) x

variable {B L D : ℕ}

/-- The scaled score of query row p against key row j in batch b. -/
def score (q k : (⟨3, ![B, L, D]⟩ : Shape).Idx → EReal) (b : Fin B) (p j : Fin L) : EReal :=
  (∑ d : Fin D, q (ix3 b p d) * k (ix3 b j d)) * Ideal.ofBits .f32 0x3E000000#32

/-- The masked scores of query row p in batch b, as a row over the keys. -/
def logit (q k : (⟨3, ![B, L, D]⟩ : Shape).Idx → EReal) (msk : (⟨3, ![B, L, L]⟩ : Shape).Idx → BitVec 1)
    (b : Fin B) (p : Fin L) : Fin L → EReal :=
  fun j => fill (msk (ix3 b p j)) (score q k b p j)

/-- The attention weights: the softmax of each row of masked scores. -/
def weights (q k : (⟨3, ![B, L, D]⟩ : Shape).Idx → EReal) (msk : (⟨3, ![B, L, L]⟩ : Shape).Idx → BitVec 1) :
    (⟨3, ![B, L, L]⟩ : Shape).Idx → EReal :=
  fun i => SoftmaxTile.prob (logit q k msk (i 0) (i 1)) (i 2)

/-- The attention output: each row of weights against the values. -/
def out (q k v : (⟨3, ![B, L, D]⟩ : Shape).Idx → EReal) (msk : (⟨3, ![B, L, L]⟩ : Shape).Idx → BitVec 1) :
    (⟨3, ![B, L, D]⟩ : Shape).Idx → EReal :=
  fun i => ∑ j : Fin L, weights q k msk (ix3 (i 0) (i 1) j) * v (ix3 (i 0) j (i 2))

theorem weights_apply (q k : (⟨3, ![B, L, D]⟩ : Shape).Idx → EReal) (msk : (⟨3, ![B, L, L]⟩ : Shape).Idx → BitVec 1)
    (b : Fin B) (p j : Fin L) : weights q k msk (ix3 b p j) = SoftmaxTile.prob (logit q k msk b p) j := rfl

theorem out_apply (q k v : (⟨3, ![B, L, D]⟩ : Shape).Idx → EReal) (msk : (⟨3, ![B, L, L]⟩ : Shape).Idx → BitVec 1)
    (b : Fin B) (p : Fin L) (d : Fin D) :
    out q k v msk (ix3 b p d) = ∑ j : Fin L, weights q k msk (ix3 b p j) * v (ix3 b j d) := rfl

end Attn

end
-- ==== Proof.LibTransDot.lean ====
/-
  A matrix product with the right operand contracted on its last axis, read at an entry.

  For the dimension numbers of an `M×K` by `N×K` product (contract axis 1 of both operands, no batch axes), the
  contraction sum at the entry `(p, q)`, on the extended reals, is `∑ k, lhs (p, k) · rhs (q, k)`: a row of the
  left operand against a row of the right one. A printed record with these six lists is
  `DotDims.transposedRhs M K N` (the well-formedness field is a proposition), so it is rewritten to it by `rfl`.
-/
import Idealize.ShloMosaic.PureOps.Ideal.Laws
import Idealize.ShloMosaic.Lib.ValueIdx

noncomputable section

namespace Cert.TransDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl j _).trans hk

/-- The right operand's index at result entry `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl j _).trans hk

/-- The contraction sum at `(p, q)` is the sum over `k` of `lhs (p, k) · rhs (q, k)`. -/
theorem contraction_eq (lhs : (⟨2, ![M, K]⟩ : Shape).Idx → EReal) (rhs : (⟨2, ![N, K]⟩ : Shape).Idx → EReal) (p : Fin M) (q : Fin N) :
    (∑ k : (DotDims.transposedRhs M K N).contr.Idx, lhs ((DotDims.transposedRhs M K N).lhsIdx (ix2 p q) k) * rhs ((DotDims.transposedRhs M K N).rhsIdx (ix2 p q) k))
      = ∑ k : Fin K, lhs (ix2 p k) * rhs (ix2 q k) := by
  rw [← Equiv.sum_comp (contrEquiv1 (DotDims.transposedRhs M K N) K rfl rfl).symm]
  refine Finset.sum_congr rfl fun k _ => ?_
  rw [lhsIdx_eq, rhsIdx_eq]
  rfl

end Cert.TransDot

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.KernelTile.lean ====
/-
  What the kernel's body computes from the four blocks it loads, entry by entry on the extended reals.

  At a grid point the body holds a block Q of 512 query rows, the 2048 key rows K and value rows V of the same
  batch, and the 512 × 2048 block M of widened mask words. It forms the scaled scores (Σ_d Q(p,d)·K(j,d)) · 1/8
  (the change of format on the way into the matrix unit is the identity on the extended reals), replaces the
  masked ones by −1 000 000, takes the softmax of each row, and multiplies the rows of weights into V. Entry
  (p, j) of the weights is the softmax of row p of masked scores at j; entry (p, d) of the product is
  Σ_j weight(p, j) · V(j, d).
-/
import proofs.«161282_j446676599162_1_alg».proof.Proof.Gen.KernelIdeal
import proofs.«161282_j446676599162_1_alg».proof.Proof.Gen.KernelIdeal.Skeleton
import proofs.«161282_j446676599162_1_alg».proof.Proof.Spec
import proofs.«161282_j446676599162_1_alg».proof.Proof.LibSoftmaxTile
import proofs.«161282_j446676599162_1_alg».proof.Proof.LibTransDot
import proofs.«161282_j446676599162_1_alg».proof.Proof.LibPlainDot
import Idealize.ShloMosaic.Lib.ValueLayout
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The tile of scaled scores of a block of query rows against the key rows. -/
def scoreTile (P0 : Vec Ideal S1x512x64 .f32) (P1 : Vec Ideal S1x2048x64 .f32) : FVec Ideal S512x2048 .f32 :=
  mulf (matmul dot_S512x64_S2048x64_S512x2048_1_1_0_0_n_n none
      (truncf .bf16 (shapeCast S512x64 P0 shapeCasts_S1x512x64_S512x64 : FVec Ideal S512x64 .f32) bitsLt_bf16_f32)
      (truncf .bf16 (shapeCast S2048x64 P1 shapeCasts_S1x2048x64_S2048x64 : FVec Ideal S2048x64 .f32) bitsLt_bf16_f32)
      (constant S512x2048 .f32 0x00000000#32))
    (broadcast S512x2048 (Scalar.ofBits .f32 0x3E000000#32))

/-- The tile of masked scores: the fill value where the widened mask word is not zero. -/
def logitTile (P0 : Vec Ideal S1x512x64 .f32) (P1 : Vec Ideal S1x2048x64 .f32) (P3 : Vec Ideal S1x512x2048 .i32) :
    FVec Ideal S512x2048 .f32 :=
  select (cmpi .ne (shapeCast S512x2048 P3 shapeCasts_S1x512x2048_S512x2048 : IVec S512x2048 32) (constantI S512x2048 32 0#32))
    (broadcast S512x2048 (Scalar.ofBits .f32 0xC9742400#32)) (scoreTile P0 P1)

/-- The body's weights are the row softmax of the masked scores. -/
theorem pay2_eq (P0 : Vec Ideal S1x512x64 .f32) (P1 : Vec Ideal S1x2048x64 .f32) (P3 : Vec Ideal S1x512x2048 .i32) :
    k0_pay2 (F := Ideal) P0 P1 P3
      = SoftmaxTile.tile (logitTile P0 P1 P3) reduces_S512x2048_S512 (.inl rfl) rfl rfl shapeCasts_S512_S512x1
          broadcasts_S512x1_S512x2048 := rfl

/-- The body's second result is the matrix product of the weights with the value rows. -/
theorem pay4_eq (P0 : Vec Ideal S1x512x64 .f32) (P1 P2 : Vec Ideal S1x2048x64 .f32) (P3 : Vec Ideal S1x512x2048 .i32) :
    k0_pay4 (F := Ideal) P0 P1 P2 P3
      = matmul dot_S512x2048_S2048x64_S512x64_1_0_0_1_n_n none
          (truncf .bf16 (k0_pay2 (F := Ideal) P0 P1 P3) bitsLt_bf16_f32)
          (truncf .bf16 (shapeCast S2048x64 P2 shapeCasts_S1x2048x64_S2048x64 : FVec Ideal S2048x64 .f32) bitsLt_bf16_f32)
          (constant S512x64 .f32 0x00000000#32) := rfl

/-- Row p of masked scores, as a row over the 2048 keys, from the loaded blocks. -/
def rowLogit (P0 : Vec Ideal S1x512x64 .f32) (P1 : Vec Ideal S1x2048x64 .f32) (P3 : Vec Ideal S1x512x2048 .i32) (p : Fin 512) :
    Fin 2048 → EReal :=
  fun k => Attn.fill (IntOp.cmpi .ne (P3 (ix3 (0 : Fin 1) p k)) 0#32)
    ((∑ d : Fin 64, P0 (ix3 (0 : Fin 1) p d) * P1 (ix3 (0 : Fin 1) k d)) * Ideal.ofBits .f32 0x3E000000#32)

/-- The scaled score at (p, j): query row p against key row j, times 1/8. -/
theorem scoreTile_apply (P0 : Vec Ideal S1x512x64 .f32) (P1 : Vec Ideal S1x2048x64 .f32) (p : Fin 512) (j : Fin 2048) :
    scoreTile P0 P1 (ix2 p j)
      = (∑ d : Fin 64, P0 (ix3 (0 : Fin 1) p d) * P1 (ix3 (0 : Fin 1) j d)) * Ideal.ofBits .f32 0x3E000000#32 := by
  refine congrArg (· * Ideal.ofBits .f32 0x3E000000#32) ?_
  refine (Ideal.matmul_constant_zero_apply dot_S512x64_S2048x64_S512x2048_1_1_0_0_n_n none _ _ (ix2 p j)).trans ?_
  refine (Cert.TransDot.contraction_eq (M := 512) (K := 64) (N := 2048)
    (truncf .bf16 (shapeCast S512x64 P0 shapeCasts_S1x512x64_S512x64 : FVec Ideal S512x64 .f32) bitsLt_bf16_f32)
    (truncf .bf16 (shapeCast S2048x64 P1 shapeCasts_S1x2048x64_S2048x64 : FVec Ideal S2048x64 .f32) bitsLt_bf16_f32) p j).trans ?_
  refine Finset.sum_congr rfl fun d _ => ?_
  show shapeCast S512x64 P0 shapeCasts_S1x512x64_S512x64 (ix2 p d) * shapeCast S2048x64 P1 shapeCasts_S1x2048x64_S2048x64 (ix2 j d) = _
  rw [shapeCast_1ab_ab_apply, shapeCast_1ab_ab_apply]

/-- The masked score at (p, k). -/
theorem logitTile_apply (P0 : Vec Ideal S1x512x64 .f32) (P1 : Vec Ideal S1x2048x64 .f32) (P3 : Vec Ideal S1x512x2048 .i32)
    (p : Fin 512) (k : Fin 2048) : logitTile P0 P1 P3 (ix2 p k) = rowLogit P0 P1 P3 p k := by
  show Scalar.select (IntOp.cmpi .ne (shapeCast S512x2048 P3 shapeCasts_S1x512x2048_S512x2048 (ix2 p k)) 0#32)
      (Ideal.ofBits .f32 0xC9742400#32) (scoreTile P0 P1 (ix2 p k)) = _
  rw [shapeCast_1ab_ab_apply, scoreTile_apply]
  rfl

/-- The body's weight at (p, j) is the softmax of row p of masked scores at j. -/
theorem pay2_apply (P0 : Vec Ideal S1x512x64 .f32) (P1 : Vec Ideal S1x2048x64 .f32) (P3 : Vec Ideal S1x512x2048 .i32)
    (p : Fin 512) (j : Fin 2048) :
    k0_pay2 (F := Ideal) P0 P1 P3 (ix2 p j) = SoftmaxTile.prob (rowLogit P0 P1 P3 p) j := by
  rw [pay2_eq]
  refine (SoftmaxTile.tile_apply (logitTile P0 P1 P3) reduces_S512x2048_S512 (.inl rfl) rfl rfl shapeCasts_S512_S512x1
    broadcasts_S512x1_S512x2048 p j).trans ?_
  exact congrArg (fun s => SoftmaxTile.prob s j) (funext fun k => logitTile_apply P0 P1 P3 p k)

/-- The body's second result at (p, d): the weights of row p against column d of the value rows. -/
theorem pay4_apply (P0 : Vec Ideal S1x512x64 .f32) (P1 P2 : Vec Ideal S1x2048x64 .f32) (P3 : Vec Ideal S1x512x2048 .i32)
    (p : Fin 512) (d : Fin 64) :
    k0_pay4 (F := Ideal) P0 P1 P2 P3 (ix2 p d)
      = ∑ j : Fin 2048, SoftmaxTile.prob (rowLogit P0 P1 P3 p) j * P2 (ix3 (0 : Fin 1) j d) := by
  rw [pay4_eq]
  refine (Ideal.matmul_constant_zero_apply dot_S512x2048_S2048x64_S512x64_1_0_0_1_n_n none _ _ (ix2 p d)).trans ?_
  refine (Cert.PlainDot.contraction_eq (M := 512) (K := 2048) (N := 64)
    (truncf .bf16 (k0_pay2 (F := Ideal) P0 P1 P3) bitsLt_bf16_f32)
    (truncf .bf16 (shapeCast S2048x64 P2 shapeCasts_S1x2048x64_S2048x64 : FVec Ideal S2048x64 .f32) bitsLt_bf16_f32) p d).trans ?_
  refine Finset.sum_congr rfl fun j _ => ?_
  show k0_pay2 (F := Ideal) P0 P1 P3 (ix2 p j) * shapeCast S2048x64 P2 shapeCasts_S1x2048x64_S2048x64 (ix2 j d) = _
  rw [pay2_apply, shapeCast_1ab_ab_apply]

/-! ## A block's rows against the arrays' rows

When row p of the loaded blocks is row (b, r) of the arrays — the query and mask blocks' row p being the arrays' row
(b, r), the key and value blocks' row j being the arrays' row (b, j) — the block's masked scores, weights and products
are the specification's at (b, r). -/

section Rows

variable (x0 : Vec Ideal S1x512x64 .f32) (x1 x2 : Vec Ideal S1x2048x64 .f32) (x3 : Vec Ideal S1x512x2048 .i32)
  (q k v : S32x2048x64.Idx → EReal) (msk : S32x2048x2048.Idx → BitVec 1) (b : Fin 32) (r : Fin 2048) (p : Fin 512)

theorem rowLogit_eq (h0 : ∀ d : Fin 64, x0 (ix3 (0 : Fin 1) p d) = q (ix3 b r d))
    (h1 : ∀ (j : Fin 2048) (d : Fin 64), x1 (ix3 (0 : Fin 1) j d) = k (ix3 b j d))
    (h3 : ∀ j : Fin 2048, IntOp.cmpi .ne (x3 (ix3 (0 : Fin 1) p j)) 0#32 = msk (ix3 b r j)) :
    rowLogit x0 x1 x3 p = Attn.logit (B := 32) (L := 2048) (D := 64) q k msk b r := by
  funext j
  show Attn.fill (IntOp.cmpi .ne (x3 (ix3 (0 : Fin 1) p j)) 0#32)
      ((∑ d : Fin 64, x0 (ix3 (0 : Fin 1) p d) * x1 (ix3 (0 : Fin 1) j d)) * Ideal.ofBits .f32 0x3E000000#32)
    = Attn.fill (msk (ix3 b r j)) ((∑ d : Fin 64, q (ix3 b r d) * k (ix3 b j d)) * Ideal.ofBits .f32 0x3E000000#32)
  rw [h3 j]
  refine congrArg (fun s => Attn.fill _ (s * Ideal.ofBits .f32 0x3E000000#32)) ?_
  exact Finset.sum_congr rfl fun d _ => by rw [h0 d, h1 j d]

theorem weight_eq (h0 : ∀ d : Fin 64, x0 (ix3 (0 : Fin 1) p d) = q (ix3 b r d))
    (h1 : ∀ (j : Fin 2048) (d : Fin 64), x1 (ix3 (0 : Fin 1) j d) = k (ix3 b j d))
    (h3 : ∀ j : Fin 2048, IntOp.cmpi .ne (x3 (ix3 (0 : Fin 1) p j)) 0#32 = msk (ix3 b r j)) (j : Fin 2048) :
    SoftmaxTile.prob (rowLogit x0 x1 x3 p) j = Attn.weights (B := 32) (L := 2048) (D := 64) q k msk (ix3 b r j) := by
  rw [rowLogit_eq x0 x1 x3 q k msk b r p h0 h1 h3]
  rfl

theorem product_eq (h0 : ∀ d : Fin 64, x0 (ix3 (0 : Fin 1) p d) = q (ix3 b r d))
    (h1 : ∀ (j : Fin 2048) (d : Fin 64), x1 (ix3 (0 : Fin 1) j d) = k (ix3 b j d))
    (h2 : ∀ (j : Fin 2048) (d : Fin 64), x2 (ix3 (0 : Fin 1) j d) = v (ix3 b j d))
    (h3 : ∀ j : Fin 2048, IntOp.cmpi .ne (x3 (ix3 (0 : Fin 1) p j)) 0#32 = msk (ix3 b r j)) (d : Fin 64) :
    (∑ j : Fin 2048, SoftmaxTile.prob (rowLogit x0 x1 x3 p) j * x2 (ix3 (0 : Fin 1) j d))
      = Attn.out (B := 32) (L := 2048) (D := 64) q k v msk (ix3 b r d) := by
  rw [Attn.out_apply]
  exact Finset.sum_congr rfl fun j _ => by rw [weight_eq x0 x1 x3 q k msk b r p h0 h1 h3 j, h2 j d]

end Rows

end Cert.KernelIdeal.Tile

end
-- ==== Proof.KernelValue.lean ====
/-
  What the kernel leaves in its two result arrays: the attention weights and output of Spec, of the argument arrays.

  The grid has 32 × 4 points; point t works on batch b(t) and on the 512 query rows 512·r(t) … 512·r(t) + 511. Its
  query, mask and both result blocks sit at block index (b, r, 0) of their arrays, its key and value blocks at
  (b, 0, 0) — all 2048 rows of the batch. So entry (p, ·) of a block the point loads or writes is entry
  (b, 512·r + p, ·) of the array, and a key or value row j of the block is row (b, j, ·). With that, what the body
  computes from its blocks (KernelTile) is the restriction of the specification's weights and output to the block,
  and since the 128 result blocks tile each result array, the arrays end holding the specification's functions.
  The mask reaches the kernel widened to 32-bit words by a host operation before the launch; a widened word is
  nonzero exactly when the bit is set.
-/
import proofs.«161282_j446676599162_1_alg».proof.Proof.Gen.KernelIdeal.Value
import proofs.«161282_j446676599162_1_alg».proof.Proof.KernelTile
import proofs.«161282_j446676599162_1_alg».proof.Proof.Spec
import Idealize.ShloMosaic.Lib.Pipeline.Value
import Idealize.ShloMosaic.Lib.StableHlo.Run
import Idealize.ShloMosaic.Lib.ValueIdx

noncomputable section

namespace Cert.KernelIdeal.ArrValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## The index maps, decided over the grid -/

/-- Every window's block index at a point, against the weights window's: the same batch; the same row tile for
    the query, mask and output windows; every other component zero. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3)
    ∧ win0_3.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_5.index t (2 : Fin 3) = 0 :=
  (by decide +kernel : ∀ t : Fin grid0.N, _)

theorem bat_lt : ∀ t : Fin cfg0.N, win0_5.index t (0 : Fin 3) < 32 := (by decide +kernel : ∀ t : Fin grid0.N, _)

theorem tile_lt : ∀ t : Fin cfg0.N, win0_5.index t (1 : Fin 3) < 4 := (by decide +kernel : ∀ t : Fin grid0.N, _)

/-- Every (batch, row tile) pair is some point's. -/
theorem idx_onto : ∀ (q0 : Fin 32) (q1 : Fin 4), ∃ t : Fin cfg0.N,
    win0_5.index t (0 : Fin 3) = q0.val ∧ win0_5.index t (1 : Fin 3) = q1.val :=
  (by decide +kernel : ∀ (q0 : Fin 32) (q1 : Fin 4), ∃ t : Fin grid0.N,
    win0_5.index t (0 : Fin 3) = q0.val ∧ win0_5.index t (1 : Fin 3) = q1.val)

/-- The batch point t works on. -/
def bat (t : Fin cfg0.N) : Fin 32 := ⟨win0_5.index t (0 : Fin 3), bat_lt t⟩

/-- The array row under row p of point t's blocks of query rows. -/
def row (t : Fin cfg0.N) (p : Fin 512) : Fin 2048 :=
  ⟨win0_5.index t (1 : Fin 3) * 512 + p.val, by have := tile_lt t; have := p.isLt; omega⟩

/-! ## The specification's functions of the argument arrays -/

/-- The specification's weights of the launch contents of the arguments. -/
def W (c : Dev nD) : S32x2048x2048.Idx → EReal :=
  Attn.weights (B := 32) (L := 2048) (D := 64) (m ((c : Thread nD τ).loc main_arg0)) (m ((c : Thread nD τ).loc main_arg1))
    (m ((c : Thread nD τ).loc main_arg3))

/-- The specification's output of the launch contents of the arguments. -/
def O (c : Dev nD) : S32x2048x64.Idx → EReal :=
  Attn.out (B := 32) (L := 2048) (D := 64) (m ((c : Thread nD τ).loc main_arg0)) (m ((c : Thread nD τ).loc main_arg1))
    (m ((c : Thread nD τ).loc main_arg2)) (m ((c : Thread nD τ).loc main_arg3))

/-! ## The blocks read where they sit in the arrays -/

/-- The region finds the mask widened to 32-bit words. -/
theorem V_mask (c : Dev nD) :
    (V m c main_v0 : S32x2048x2048.Idx → BitVec 32) = extui 32 (m ((c : Thread nD τ).loc main_arg3)) natLt_1_32 := by
  dsimp only [V, hostOps0]; after_results

/-- Entry (p, d) of the query block is entry (b, 512·r + p, d) of the queries. -/
theorem read0 (c : Dev nD) (t : Fin cfg0.N) (p : Fin 512) (d : Fin 64) :
    iblk m c 0 t (ix3 (0 : Fin 1) p d) = m ((c : Thread nD τ).loc main_arg0) (ix3 (bat t) (row t p) d) := by
  obtain ⟨e0, e1, e2, -⟩ := idx_facts t
  show V m c main_arg0 (((cfg0.win 0).blk t).view.emb (ix3 (0 : Fin 1) p d)) = _
  rw [V_main_arg0]
  refine congrArg (m ((c : Thread nD τ).loc main_arg0)) ?_
  funext a; apply Fin.ext
  match a with
  | ⟨0, _⟩ => show win0_0.index t (0 : Fin 3) * 1 + 1 * 0 = win0_5.index t (0 : Fin 3); omega
  | ⟨1, _⟩ => show win0_0.index t (1 : Fin 3) * 512 + 1 * p.val = win0_5.index t (1 : Fin 3) * 512 + p.val; omega
  | ⟨2, _⟩ => show win0_0.index t (2 : Fin 3) * 64 + 1 * d.val = d.val; omega

/-- Entry (k, d) of the key block is entry (b, k, d) of the keys. -/
theorem read1 (c : Dev nD) (t : Fin cfg0.N) (k : Fin 2048) (d : Fin 64) :
    iblk m c 1 t (ix3 (0 : Fin 1) k d) = m ((c : Thread nD τ).loc main_arg1) (ix3 (bat t) k d) := by
  obtain ⟨-, -, -, e0, e1, e2, -⟩ := idx_facts t
  show V m c main_arg1 (((cfg0.win 1).blk t).view.emb (ix3 (0 : Fin 1) k d)) = _
  rw [V_main_arg1]
  refine congrArg (m ((c : Thread nD τ).loc main_arg1)) ?_
  funext a; apply Fin.ext
  match a with
  | ⟨0, _⟩ => show win0_1.index t (0 : Fin 3) * 1 + 1 * 0 = win0_5.index t (0 : Fin 3); omega
  | ⟨1, _⟩ => show win0_1.index t (1 : Fin 3) * 2048 + 1 * k.val = k.val; omega
  | ⟨2, _⟩ => show win0_1.index t (2 : Fin 3) * 64 + 1 * d.val = d.val; omega

/-- Entry (k, d) of the value block is entry (b, k, d) of the values. -/
theorem read2 (c : Dev nD) (t : Fin cfg0.N) (k : Fin 2048) (d : Fin 64) :
    iblk m c 2 t (ix3 (0 : Fin 1) k d) = m ((c : Thread nD τ).loc main_arg2) (ix3 (bat t) k d) := by
  obtain ⟨-, -, -, -, -, -, e0, e1, e2, -⟩ := idx_facts t
  show V m c main_arg2 (((cfg0.win 2).blk t).view.emb (ix3 (0 : Fin 1) k d)) = _
  rw [V_main_arg2]
  refine congrArg (m ((c : Thread nD τ).loc main_arg2)) ?_
  funext a; apply Fin.ext
  match a with
  | ⟨0, _⟩ => show win0_2.index t (0 : Fin 3) * 1 + 1 * 0 = win0_5.index t (0 : Fin 3); omega
  | ⟨1, _⟩ => show win0_2.index t (1 : Fin 3) * 2048 + 1 * k.val = k.val; omega
  | ⟨2, _⟩ => show win0_2.index t (2 : Fin 3) * 64 + 1 * d.val = d.val; omega

/-- The word at (p, k) of the mask block is nonzero exactly when the mask bit at (b, 512·r + p, k) is set. -/
theorem read3 (c : Dev nD) (t : Fin cfg0.N) (p : Fin 512) (k : Fin 2048) :
    IntOp.cmpi .ne (iblk m c 3 t (ix3 (0 : Fin 1) p k)) 0#32
      = m ((c : Thread nD τ).loc main_arg3) (ix3 (bat t) (row t p) k) := by
  obtain ⟨-, -, -, -, -, -, -, -, -, e0, e1, e2, -⟩ := idx_facts t
  have hi : ((cfg0.win 3).blk t).view.emb (ix3 (0 : Fin 1) p k) = ix3 (bat t) (row t p) k := by
    funext a; apply Fin.ext
    match a with
    | ⟨0, _⟩ => show win0_3.index t (0 : Fin 3) * 1 + 1 * 0 = win0_5.index t (0 : Fin 3); omega
    | ⟨1, _⟩ => show win0_3.index t (1 : Fin 3) * 512 + 1 * p.val = win0_5.index t (1 : Fin 3) * 512 + p.val; omega
    | ⟨2, _⟩ => show win0_3.index t (2 : Fin 3) * 2048 + 1 * k.val = k.val; omega
  show IntOp.cmpi .ne (V m c main_v0 (((cfg0.win 3).blk t).view.emb (ix3 (0 : Fin 1) p k))) 0#32 = _
  rw [hi, V_mask]
  exact Attn.ne_zero_widened _

/-! ## What a point writes back -/

/-- What the body leaves of the weights block, over any loaded blocks. -/
theorem out5_apply (x0 : Vec Ideal S1x512x64 .f32) (x1 x2 : Vec Ideal S1x2048x64 .f32) (x3 : Vec Ideal S1x512x2048 .i32)
    (y : S1x512x2048.Idx) :
    out0_5 x0 x1 x2 x3 y = SoftmaxTile.prob (Tile.rowLogit x0 x1 x3 (y 1)) (y 2) := by
  unfold out0_5
  simp only [View.ld_unit_zero (S := S1x512x64) hz, View.ld_unit_zero (S := S1x2048x64) hz, View.ld_unit_zero (S := S1x512x2048) hz]
  rw [Value.canon5_eq]
  have e : Value.ix5_0 y = ix2 (y 1 : Fin 512) (y 2 : Fin 2048) :=
    funext fun a => Fin.ext (by match a with | ⟨0, _⟩ => rfl | ⟨1, _⟩ => rfl)
  show k0_pay2 (F := Ideal) x0 x1 x3 (Value.ix5_0 y) = _
  rw [e]
  exact Tile.pay2_apply x0 x1 x3 (y 1) (y 2)

/-- What the body leaves of the output block, over any loaded blocks. -/
theorem out4_apply (x0 : Vec Ideal S1x512x64 .f32) (x1 x2 : Vec Ideal S1x2048x64 .f32) (x3 : Vec Ideal S1x512x2048 .i32)
    (y : S1x512x64.Idx) :
    out0_4 x0 x1 x2 x3 y
      = ∑ j : Fin 2048, SoftmaxTile.prob (Tile.rowLogit x0 x1 x3 (y 1)) j * x2 (ix3 (0 : Fin 1) j (y 2)) := by
  unfold out0_4
  simp only [View.ld_unit_zero (S := S1x512x64) hz, View.ld_unit_zero (S := S1x2048x64) hz, View.ld_unit_zero (S := S1x512x2048) hz]
  rw [Value.canon4_eq]
  have e : Value.ix4_0 y = ix2 (y 1 : Fin 512) (y 2 : Fin 64) :=
    funext fun a => Fin.ext (by match a with | ⟨0, _⟩ => rfl | ⟨1, _⟩ => rfl)
  show k0_pay4 (F := Ideal) x0 x1 x2 x3 (Value.ix4_0 y) = _
  rw [e]
  exact Tile.pay4_apply x0 x1 x2 x3 (y 1) (y 2)

/-- An entry of point t's weights block sits at (b, 512·r + y₁, y₂) of the weights array. -/
theorem emb5 (t : Fin cfg0.N) (y : S1x512x2048.Idx) :
    ((cfg0.win 5).blk t).view.emb y = ix3 (bat t) (row t (y 1)) (y 2) := by
  obtain ⟨-, -, -, -, -, -, -, -, -, -, -, -, -, -, -, e2⟩ := idx_facts t
  funext a; apply Fin.ext
  match a with
  | ⟨0, _⟩ =>
    show win0_5.index t (0 : Fin 3) * 1 + 1 * (y 0).val = win0_5.index t (0 : Fin 3)
    have : (y 0).val < 1 := (y 0).isLt
    omega
  | ⟨1, _⟩ => show win0_5.index t (1 : Fin 3) * 512 + 1 * (y 1).val = win0_5.index t (1 : Fin 3) * 512 + (y 1).val; omega
  | ⟨2, _⟩ => show win0_5.index t (2 : Fin 3) * 2048 + 1 * (y 2).val = (y 2).val; omega

/-- An entry of point t's output block sits at (b, 512·r + y₁, y₂) of the output array. -/
theorem emb4 (t : Fin cfg0.N) (y : S1x512x64.Idx) :
    ((cfg0.win 4).blk t).view.emb y = ix3 (bat t) (row t (y 1)) (y 2) := by
  obtain ⟨-, -, -, -, -, -, -, -, -, -, -, -, e0, e1, e2, -⟩ := idx_facts t
  funext a; apply Fin.ext
  match a with
  | ⟨0, _⟩ =>
    show win0_4.index t (0 : Fin 3) * 1 + 1 * (y 0).val = win0_5.index t (0 : Fin 3)
    have : (y 0).val < 1 := (y 0).isLt
    omega
  | ⟨1, _⟩ => show win0_4.index t (1 : Fin 3) * 512 + 1 * (y 1).val = win0_5.index t (1 : Fin 3) * 512 + (y 1).val; omega
  | ⟨2, _⟩ => show win0_4.index t (2 : Fin 3) * 64 + 1 * (y 2).val = (y 2).val; omega

/-- WHAT POINT t WRITES BACK to the weights array is its block of the specification's weights. -/
theorem flushed5_eq (c : Dev nD) (t : Fin cfg0.N) :
    (dats m 0 c).flushed 5 t = ((cfg0.win 5).blk t).view.read (Elt Ideal) (W m c) := by
  rw [Value.flushed5]
  funext y
  show out0_5 (iblk m c 0 t) (iblk m c 1 t) (iblk m c 2 t) (iblk m c 3 t) y = W m c (((cfg0.win 5).blk t).view.emb y)
  refine (out5_apply (iblk m c 0 t) (iblk m c 1 t) (iblk m c 2 t) (iblk m c 3 t) y).trans ?_
  refine Eq.trans ?_ (congrArg (W m c) (emb5 t y)).symm
  exact Tile.weight_eq (iblk m c 0 t) (iblk m c 1 t) (iblk m c 3 t) (m ((c : Thread nD τ).loc main_arg0))
    (m ((c : Thread nD τ).loc main_arg1)) (m ((c : Thread nD τ).loc main_arg3)) (bat t) (row t (y 1)) (y 1)
    (read0 m c t (y 1)) (read1 m c t) (read3 m c t (y 1)) (y 2)

/-- WHAT POINT t WRITES BACK to the output array is its block of the specification's output. -/
theorem flushed4_eq (c : Dev nD) (t : Fin cfg0.N) :
    (dats m 0 c).flushed 4 t = ((cfg0.win 4).blk t).view.read (Elt Ideal) (O m c) := by
  rw [Value.flushed4]
  funext y
  show out0_4 (iblk m c 0 t) (iblk m c 1 t) (iblk m c 2 t) (iblk m c 3 t) y = O m c (((cfg0.win 4).blk t).view.emb y)
  refine (out4_apply (iblk m c 0 t) (iblk m c 1 t) (iblk m c 2 t) (iblk m c 3 t) y).trans ?_
  refine Eq.trans ?_ (congrArg (O m c) (emb4 t y)).symm
  exact Tile.product_eq (iblk m c 0 t) (iblk m c 1 t) (iblk m c 2 t) (iblk m c 3 t) (m ((c : Thread nD τ).loc main_arg0))
    (m ((c : Thread nD τ).loc main_arg1)) (m ((c : Thread nD τ).loc main_arg2)) (m ((c : Thread nD τ).loc main_arg3))
    (bat t) (row t (y 1)) (y 1) (read0 m c t (y 1)) (read1 m c t) (read2 m c t) (read3 m c t (y 1)) (y 2)

/-! ## The result blocks tile the result arrays -/

/-- An index of the weights array is in point t's block iff each coordinate is in the block's range on its axis. -/
theorem mem_blk5 (t : Fin cfg0.N) (i : S32x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v1_1).slice (win0_5.rect t)).set ↔ _
  rw [View.set_slice_whole, Rect.mem_set_unit]
  exact Iff.rfl

/-- An index of the output array is in point t's block iff each coordinate is in the block's range on its axis. -/
theorem mem_blk4 (t : Fin cfg0.N) (i : S32x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v1_0).slice (win0_4.rect t)).set ↔ _
  rw [View.set_slice_whole, Rect.mem_set_unit]
  exact Iff.rfl

/-- Every entry (b, r, j) of the weights array is in the block of the point of batch b and row tile r / 512. -/
theorem cover5 (i : S32x2048x2048.Idx) :
    ∃ t : Fin cfg0.N, (cfg0.win 5).flush t = true ∧ i ∈ ((cfg0.win 5).blk t).view.set := by
  have hi0 : (i 0).val < 32 := (i 0).isLt
  have hi1 : (i 1).val < 2048 := (i 1).isLt
  have hi2 : (i 2).val < 2048 := (i 2).isLt
  obtain ⟨t, q0, q1⟩ := idx_onto ⟨(i 0).val, hi0⟩ ⟨(i 1).val / 512, by omega⟩
  have q0' : win0_5.index t (0 : Fin 3) = (i 0).val := q0
  have q1' : win0_5.index t (1 : Fin 3) = (i 1).val / 512 := q1
  obtain ⟨-, -, -, -, -, -, -, -, -, -, -, -, -, -, -, q2⟩ := idx_facts t
  refine ⟨t, flush0_5 t, ?_⟩
  rw [mem_blk5]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 512 ≤ (i 1).val ∧ (i 1).val < win0_5.index t (1 : Fin 3) * 512 + 512
    omega
  | ⟨2, _⟩ =>
    show win0_5.index t (2 : Fin 3) * 2048 ≤ (i 2).val ∧ (i 2).val < win0_5.index t (2 : Fin 3) * 2048 + 2048
    omega

/-- Every entry (b, r, d) of the output array is in the block of the point of batch b and row tile r / 512. -/
theorem cover4 (i : S32x2048x64.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, q0, q1⟩ := idx_onto ⟨(i 0).val, hi0⟩ ⟨(i 1).val / 512, by omega⟩
  have q0' : win0_5.index t (0 : Fin 3) = (i 0).val := q0
  have q1' : win0_5.index t (1 : Fin 3) = (i 1).val / 512 := q1
  obtain ⟨-, -, -, -, -, -, -, -, -, -, -, -, e0, e1, e2, -⟩ := idx_facts t
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 64 ≤ (i 2).val ∧ (i 2).val < win0_4.index t (2 : Fin 3) * 64 + 64
    omega

/-- The weights array after the run is the specification's weights. -/
theorem final5 (c : Dev nD) : (dats m 0 c).arrAt 5 cfg0.N = W m c :=
  (dats m 0 c).arrAt_eq_of_cover 5 (W m c) (fun t _ => flushed5_eq m c t) cover5

/-- The output array after the run is the specification's output. -/
theorem final4 (c : Dev nD) : (dats m 0 c).arrAt 4 cfg0.N = O m c :=
  (dats m 0 c).arrAt_eq_of_cover 4 (O m c) (fun t _ => flushed4_eq m c t) cover4

/-! ## The run, read -/

/-- Every weakly fair execution of the kernel's program ends with its two results at the specification's output
    and weights of the arguments, and the arguments unchanged. -/
theorem run : θ_run defs (onTc (τ := τ) (main (F := Ideal))) ⟨m, fun _ => 0, ρ⟩ fun r => ∀ c : Dev nD,
      r.2.mem ((c : Thread nD τ).loc main_v1_0) = O m c
      ∧ r.2.mem ((c : Thread nD τ).loc main_v1_1) = W m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.ArrValue

end
-- ==== Proof.LibLastAxisMax.lean ====
/-
  The maximum along the last axis of an [a, b, c] array, started from −∞, as the host takes it, read at an entry.

  The host's one-operand maximum-reduce over axis 2 with the scalar constant −∞ as its initial value is, on the
  extended reals at (p, q), the maximum over k of the entries (p, q, k), with −∞ (the bottom element) the maximum
  of no entries: the maximum is commutative and associative, so the order in which the entries are met does not
  matter. Stated for any extents a, b and c.
-/
import Idealize.ShloMosaic.Lib.Pipeline.Value
import Idealize.ShloMosaic.Lib.ValueIdx
import Idealize.ShloMosaic.PureOps.Ideal.Laws
import proofs.«161282_j446676599162_1_alg».proof.Proof.LibRowMax

noncomputable section

namespace LastAxisMax

open Idealize.ShloMosaic Idealize.ShloMosaic.ValueIdx

/-- The index of an [a, b, c] array that lies over (p, q) of the reduced [a, b] with the last coordinate k put
    back is (p, q, k). -/
theorem lift_last {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum-reduce along the last axis from the scalar −∞, at (p, q). -/
theorem hostMax_apply {a b c : ℕ} (src : FVec Ideal ⟨3, ![a, b, c]⟩ .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel)
    (p : Fin a) (q : Fin b) :
    Host.reduce (FloatOps.maximumf (F := Ideal) (φ := .f32)) src (constant (F := Ideal) ⟨0, ![]⟩ .f32 0xFF800000#32) h' hu (ix2 p q)
      = (Finset.univ : Finset (Fin c)).fold max ⊥ (fun k => src (ix3 p q k)) := by
  rw [Host.reduce_eq_fold_single (FloatOps.maximumf (F := Ideal) (φ := .f32)) src _ h' h hu (ix2 p q),
    show (src ∘ h.lift (ix2 p q)) = fun k : Fin c => src (ix3 p q k) from
      funext fun k => congrArg src (lift_last h p q k)]
  show Finset.fold max (Ideal.ofBits .f32 0xFF800000#32) _ _ = _
  rw [RowMax.ofBits_neg_inf]
  rfl

end LastAxisMax

end
-- ==== Proof.RefRead.lean ====
/-
  What the reference computes, entry by entry on the extended reals: the attention weights and output of Spec.

  The reference divides the query-key products by 8 where the specification multiplies by 1/8 (equal on every
  extended real), selects on the mask bit itself, and takes the softmax of each row with the same shift
  max(−∞, max_j logit_j); its sums and its maximum run over the same entries as the specification's.
-/
import proofs.«161282_j446676599162_1_alg».proof.Proof.Gen.ReferenceIdeal.Read
import proofs.«161282_j446676599162_1_alg».proof.Proof.Spec
import proofs.«161282_j446676599162_1_alg».proof.Proof.LibLastAxisMax
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (q k v : (⟨S32x2048x64, .f32⟩ : BufTy).Contents (Elt Ideal)) (msk : (⟨S32x2048x2048, .i1⟩ : BufTy).Contents (Elt Ideal))

theorem lidx0 (b : Fin 32) (p j : Fin 2048) (d : Fin 64) : lidx_main_v0 (ix3 b p j) d = ix3 b p d :=
  funext fun a => Fin.ext (by match a with | ⟨0, _⟩ => rfl | ⟨1, _⟩ => rfl | ⟨2, _⟩ => rfl)

theorem ridx0 (b : Fin 32) (p j : Fin 2048) (d : Fin 64) : ridx_main_v0 (ix3 b p j) d = ix3 b j d :=
  funext fun a => Fin.ext (by match a with | ⟨0, _⟩ => rfl | ⟨1, _⟩ => rfl | ⟨2, _⟩ => rfl)

theorem idx78 (b : Fin 32) (p j : Fin 2048) : idx_main_v7 (idx_main_v8 (ix3 b p j)) = ix2 b p :=
  funext fun a => Fin.ext (by match a with | ⟨0, _⟩ => rfl | ⟨1, _⟩ => rfl)

theorem idx1213 (b : Fin 32) (p j : Fin 2048) : idx_main_v12 (idx_main_v13 (ix3 b p j)) = ix2 b p :=
  funext fun a => Fin.ext (by match a with | ⟨0, _⟩ => rfl | ⟨1, _⟩ => rfl)

theorem idx11 (b : Fin 32) (p j : Fin 2048) : idx_main_v11 (ix2 b p) j = ix3 b p j :=
  funext fun a => Fin.ext (by match a with | ⟨0, _⟩ => rfl | ⟨1, _⟩ => rfl | ⟨2, _⟩ => rfl)

theorem lidx15 (b : Fin 32) (p : Fin 2048) (d : Fin 64) (j : Fin 2048) : lidx_main_v15 (ix3 b p d) j = ix3 b p j :=
  funext fun a => Fin.ext (by match a with | ⟨0, _⟩ => rfl | ⟨1, _⟩ => rfl | ⟨2, _⟩ => rfl)

theorem ridx15 (b : Fin 32) (p : Fin 2048) (d : Fin 64) (j : Fin 2048) : ridx_main_v15 (ix3 b p d) j = ix3 b j d :=
  funext fun a => Fin.ext (by match a with | ⟨0, _⟩ => rfl | ⟨1, _⟩ => rfl | ⟨2, _⟩ => rfl)

/-- The reference's masked score at (b, p, j). -/
theorem logit_eq (b : Fin 32) (p j : Fin 2048) :
    val_main_v3 (F := Ideal) q k msk (ix3 b p j) = Attn.logit (B := 32) (L := 2048) (D := 64) q k msk b p j := by
  rw [val_main_v3_apply, val_main_call0_v1_apply, val_main_call0_v0_apply, val_main_cst_0_apply, val_main_v2_apply,
    val_main_v1_apply, val_main_cst_apply, val_main_v0_apply]
  simp only [lidx0, ridx0]
  show Scalar.select (msk (ix3 b p j)) (Ideal.ofBits .f32 0xC9742400#32)
      (Ideal.div (∑ d : Fin 64, q (ix3 b p d) * k (ix3 b j d)) (Ideal.ofBits .f32 0x41000000#32)) = _
  rw [Attn.div_eight]
  rfl

/-- The reference's row shift at (b, p). -/
theorem shift_eq (b : Fin 32) (p : Fin 2048) :
    val_main_v6 (F := Ideal) q k msk (ix2 b p) = SoftmaxTile.shift (Attn.logit (B := 32) (L := 2048) (D := 64) q k msk b p) := by
  have h4 : val_main_v4 (F := Ideal) q k msk (ix2 b p)
      = (Finset.univ : Finset (Fin 2048)).fold max ⊥ (fun j => val_main_v3 (F := Ideal) q k msk (ix3 b p j)) :=
    LastAxisMax.hostMax_apply (val_main_v3 (F := Ideal) q k msk) reducesTo_S32x2048x2048_S32x2048_d2 (by decide) h_S_ b p
  rw [val_main_v6_apply, val_main_v5_apply, val_main_cst_2_apply, h4]
  simp only [logit_eq]
  rfl

/-- The reference's shifted exponential at (b, p, j). -/
theorem num_eq (b : Fin 32) (p j : Fin 2048) :
    val_main_v10 (F := Ideal) q k msk (ix3 b p j) = SoftmaxTile.num (Attn.logit (B := 32) (L := 2048) (D := 64) q k msk b p) j := by
  rw [val_main_v10_apply, val_main_v9_apply, val_main_v8_apply, val_main_v7_apply, idx78, shift_eq, logit_eq]
  rfl

/-- The reference's row sum of exponentials at (b, p). -/
theorem den_eq (b : Fin 32) (p : Fin 2048) :
    val_main_v11 (F := Ideal) q k msk (ix2 b p)
      = ∑ j : Fin 2048, SoftmaxTile.num (Attn.logit (B := 32) (L := 2048) (D := 64) q k msk b p) j := by
  rw [val_main_v11_apply, val_main_cst_3_apply]
  show Ideal.ofBits .f32 0x00000000#32 + _ = _
  rw [Ideal.ofBits_zero_f32, zero_add]
  exact Finset.sum_congr rfl fun j _ => by rw [idx11, num_eq]

/-- The reference's first result is the specification's weights. -/
theorem weights_eq : val_main_v14 (F := Ideal) q k msk = Attn.weights (B := 32) (L := 2048) (D := 64) q k msk := by
  funext i
  obtain ⟨b, p, j, rfl⟩ : ∃ (b : Fin 32) (p j : Fin 2048), i = ix3 b p j := ⟨i 0, i 1, i 2, eq_ix3 i⟩
  rw [val_main_v14_apply, val_main_v13_apply, val_main_v12_apply, idx1213, num_eq, den_eq]
  rfl

/-- The reference's second result is the specification's output. -/
theorem out_eq : val_main_v15 (F := Ideal) q k v msk = Attn.out (B := 32) (L := 2048) (D := 64) q k v msk := by
  funext i
  obtain ⟨b, p, d, rfl⟩ : ∃ (b : Fin 32) (p : Fin 2048) (d : Fin 64), i = ix3 b p d := ⟨i 0, i 1, i 2, eq_ix3 i⟩
  rw [val_main_v15_apply, weights_eq]
  exact Finset.sum_congr rfl fun j _ => by rw [lidx15, ridx15]

end Cert.ReferenceIdeal.RefValue

end
-- ==== Proof.lean ====
/- The proof of `Cert.Claim`: a masked scaled dot-product attention kernel against its reference, on the extended reals.

   Both programs return, for queries q, keys k and values v of shape [32, 2048, 64] and a mask of shape
   [32, 2048, 2048], the attention weights softmax_j(masked(q·kᵀ / 8)) and their product with v (Proof/Spec.lean states
   both entry by entry). The kernel multiplies the scores by 1/8 where the reference divides by 8 — the same number
   on every extended real —, works on one batch and 512 query rows per grid point against all 2048 key and value rows
   of the batch, and receives the mask widened to 32-bit words; the two programs' sums and maxima run over the same
   entries, so no law of arithmetic beyond that one identity is used and the finiteness of the inputs is never opened.
   Proof/KernelTile.lean reads what the body computes from its blocks, Proof/KernelValue.lean what the two result arrays
   hold after the run, Proof/RefRead.lean what the reference computes; the frames are the generated ones, and the
   idealization rewrote nothing, so `preserves` is `True`. -/
import proofs.«161282_j446676599162_1_alg».proof.Defs
import proofs.«161282_j446676599162_1_alg».proof.Proof.Gen.Kernel
import proofs.«161282_j446676599162_1_alg».proof.Proof.Gen.Kernel.Frame
import proofs.«161282_j446676599162_1_alg».proof.Proof.Gen.KernelIdeal
import proofs.«161282_j446676599162_1_alg».proof.Proof.Gen.KernelIdeal.Frame
import proofs.«161282_j446676599162_1_alg».proof.Proof.Gen.KernelIdeal.Value
import proofs.«161282_j446676599162_1_alg».proof.Proof.Gen.ReferenceIdeal
import proofs.«161282_j446676599162_1_alg».proof.Proof.Gen.ReferenceIdeal.Run
import proofs.«161282_j446676599162_1_alg».proof.Proof.Gen.ReferenceIdeal.Read
import proofs.«161282_j446676599162_1_alg».proof.Proof.Gen.Pre_finite_inputs
import proofs.«161282_j446676599162_1_alg».proof.Proof.KernelValue
import proofs.«161282_j446676599162_1_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments the kernel's program ends with its results at the specification's
    output and weights of the arguments, and so does the reference. -/
theorem algebraic : Cert.algebraic_KernelIdeal_ReferenceIdeal := by
  intro m ρ m' ρ' _ hagree
  refine ⟨fun c => Cert.KernelIdeal.ArrValue.O m c, fun c => Cert.KernelIdeal.ArrValue.W m c,
    Cert.KernelIdeal.ArrValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · refine (Cert.ReferenceIdeal.Read.val_main_v15_eq (F := Ideal) _ _ _ _).trans ?_
    rw [Cert.ReferenceIdeal.RefValue.out_eq, (hagree c).1, (hagree c).2.1, (hagree c).2.2.1, (hagree c).2.2.2]
    rfl
  · refine (Cert.ReferenceIdeal.Read.val_main_v14_eq (F := Ideal) _ _ _).trans ?_
    rw [Cert.ReferenceIdeal.RefValue.weights_eq, (hagree c).1, (hagree c).2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
